-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S4096x32 : Shape := ⟨2, ![4096, 32]⟩
abbrev S4096x1 : Shape := ⟨2, ![4096, 1]⟩
abbrev S1 : Shape := ⟨1, ![1]⟩
abbrev S_ : Shape := ⟨0, ![]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S32768x32 .f32) (main_arg1 : FVec F S4096x32 .f32) (main_arg2 : FVec F S4096x1 .f32) (main_arg3 : FVec F S1 .f32) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S32768x32 : Shape := ⟨2, ![32768, 32]⟩
abbrev S4096x32 : Shape := ⟨2, ![4096, 32]⟩
abbrev S4096x1 : Shape := ⟨2, ![4096, 1]⟩
abbrev S1 : Shape := ⟨1, ![1]⟩
abbrev S_ : Shape := ⟨0, ![]⟩
abbrev S32768x1 : Shape := ⟨2, ![32768, 1]⟩
abbrev S512x32 : Shape := ⟨2, ![512, 32]⟩
abbrev S512x1 : Shape := ⟨2, ![512, 1]⟩
abbrev S512 : Shape := ⟨1, ![512]⟩
abbrev S4096 : Shape := ⟨1, ![4096]⟩
abbrev S1x4096 : Shape := ⟨2, ![1, 4096]⟩
abbrev S32x4096 : Shape := ⟨2, ![32, 4096]⟩
abbrev S512x4096 : Shape := ⟨2, ![512, 4096]⟩

abbrev nBuf : Space → Nat
  | .hbm => 10
  | .vmem => 6
  | .smem => 0
  | _ => 0

abbrev bufTy : (tb : Table) → Fin (tcTables nBuf tb) → BufTy
  | .hbm, ⟨0, _⟩ => ⟨S32768x32, .f32⟩
  | .hbm, ⟨1, _⟩ => ⟨S4096x32, .f32⟩
  | .hbm, ⟨2, _⟩ => ⟨S4096x1, .f32⟩
  | .hbm, ⟨3, _⟩ => ⟨S1, .f32⟩
  | .hbm, ⟨4, _⟩ => ⟨S_, .f32⟩
  | .hbm, ⟨5, _⟩ => ⟨S32768x32, .f32⟩
  | .hbm, ⟨6, _⟩ => ⟨S32768x32, .f32⟩
  | .hbm, ⟨7, _⟩ => ⟨S4096x32, .f32⟩
  | .hbm, ⟨8, _⟩ => ⟨S4096x32, .f32⟩
  | .hbm, ⟨9, _⟩ => ⟨S32768x1, .f32⟩
  | .local _ .vmem, ⟨0, _⟩ => ⟨S512x32, .f32⟩
  | .local _ .vmem, ⟨1, _⟩ => ⟨S512x32, .f32⟩
  | .local _ .vmem, ⟨2, _⟩ => ⟨S4096x32, .f32⟩
  | .local _ .vmem, ⟨3, _⟩ => ⟨S4096x1, .f32⟩
  | .local _ .vmem, ⟨4, _⟩ => ⟨S512x1, .f32⟩
  | .local _ .vmem, ⟨5, _⟩ => ⟨S512x1, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S_ : S1.ShapeCasts S_
  bcast_S_S32768x32 : S_.BroadcastsInDim S32768x32 (![] : Fin 0 → Fin S32768x32.rank)
  bcast_S_S4096x32 : S_.BroadcastsInDim S4096x32 (![] : Fin 0 → Fin S4096x32.rank)
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S4096x1_S4096x1_0_0 : ∀ a, (![0, 0] : Fin 2 → Nat) a + S4096x1.size a ≤ S4096x1.size a
  h_S4096x1 : 0 < S4096x1.numel
  reduces_S512x32_S512 : S512x32.Reduces [1] S512
  shapeCasts_S512_S512x1 : S512.ShapeCasts S512x1
  reduces_S4096x32_S4096 : S4096x32.Reduces [1] S4096
  shapeCasts_S4096_S4096x1 : S4096.ShapeCasts S4096x1
  transposes_S4096x1_p1_0_S1x4096 : S4096x1.Transposes [1, 0] S1x4096
  bitsLt_bf16_f32 : FTy.bits .bf16 < FTy.bits .f32
  transposes_S4096x32_p1_0_S32x4096 : S4096x32.Transposes [1, 0] S32x4096
  broadcasts_S512x1_S512x4096 : S512x1.Broadcasts S512x4096
  broadcasts_S1x4096_S512x4096 : S1x4096.Broadcasts S512x4096
  reduces_S512x4096_S512 : S512x4096.Reduces [1] S512
  inb_S512x1_S512x1_0_0 : ∀ a, (![0, 0] : Fin 2 → Nat) a + S512x1.size a ≤ S512x1.size a
  h_S512x1 : 0 < S512x1.numel
  dot_S512x32_S32x4096_S512x4096_1_0_0_1_n_n_wf : DotDims.WF S512x32 S32x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S32768x32.size a
  hwx0_0 : ∀ i : grid0.Coords, EltTy.bits .f32 = 32 ∨ (Rect.block (s := S32768x32) S512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4096x32.size a
  hwx0_1 : ∀ i : grid0.Coords, EltTy.bits .f32 = 32 ∨ (Rect.block (s := S4096x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .f32 = 32 ∨ (Rect.block (s := S4096x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S32768x1.size a
  hwx0_3 : ∀ i : grid0.Coords, EltTy.bits .f32 = 32 ∨ (Rect.block (s := S32768x1) S512x1.size (cc0_transform_3 i) (hinb0_3 i)).WholeWords (EltTy.packing .f32)

variable [Facts₀]

def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_v2) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x32 : Shape := ⟨2, ![32768, 32]⟩
abbrev S4096x32 : Shape := ⟨2, ![4096, 32]⟩
abbrev S4096x1 : Shape := ⟨2, ![4096, 1]⟩
abbrev S1 : Shape := ⟨1, ![1]⟩
abbrev S_ : Shape := ⟨0, ![]⟩
abbrev S32768 : Shape := ⟨1, ![32768]⟩
abbrev S32768x1 : Shape := ⟨2, ![32768, 1]⟩
abbrev S4096 : Shape := ⟨1, ![4096]⟩
abbrev S1x4096 : Shape := ⟨2, ![1, 4096]⟩
abbrev S32768x4096 : Shape := ⟨2, ![32768, 4096]⟩
abbrev S32x4096 : Shape := ⟨2, ![32, 4096]⟩

abbrev nBuf : Space → Nat
  | .hbm => 32
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S4096x32, .f32⟩
  | .hbm, ⟨2, _⟩ => ⟨S4096x1, .f32⟩
  | .hbm, ⟨3, _⟩ => ⟨S1, .f32⟩
  | .hbm, ⟨4, _⟩ => ⟨S_, .f32⟩
  | .hbm, ⟨5, _⟩ => ⟨S32768x32, .f32⟩
  | .hbm, ⟨6, _⟩ => ⟨S32768x32, .f32⟩
  | .hbm, ⟨7, _⟩ => ⟨S4096x32, .f32⟩
  | .hbm, ⟨8, _⟩ => ⟨S4096x32, .f32⟩
  | .hbm, ⟨9, _⟩ => ⟨S32768x32, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S4096x32, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S1x4096, .f32⟩
  | .hbm, ⟨18, _⟩ => ⟨S32768x4096, .f32⟩
  | .hbm, ⟨19, _⟩ => ⟨S32768x4096, .f32⟩
  | .hbm, ⟨20, _⟩ => ⟨S32768x4096, .f32⟩
  | .hbm, ⟨21, _⟩ => ⟨S32x4096, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x1, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S1_S_ : S1.ShapeCasts S_
  bcast_S_S32768x32 : S_.BroadcastsInDim S32768x32 (![] : Fin 0 → Fin S32768x32.rank)
  bcast_S_S4096x32 : S_.BroadcastsInDim S4096x32 (![] : Fin 0 → Fin S4096x32.rank)
  reducesTo_S32768x32_S32768_d1 : S32768x32.ReducesTo [1] S32768
  h_S_ : 0 < S_.numel
  bcast_S32768_S32768x1_0 : S32768.BroadcastsInDim S32768x1 (![0] : Fin 1 → Fin S32768x1.rank)
  reducesTo_S4096x32_S4096_d1 : S4096x32.ReducesTo [1] S4096
  bcast_S4096_S4096x1_0 : S4096.BroadcastsInDim S4096x1 (![0] : Fin 1 → Fin S4096x1.rank)
  transposes_S4096x1_S1x4096_1_0 : S4096x1.Transposes [1, 0] S1x4096
  bcast_S32768x1_S32768x4096_0_1 : S32768x1.BroadcastsInDim S32768x4096 (![0, 1] : Fin 2 → Fin S32768x4096.rank)
  bcast_S1x4096_S32768x4096_0_1 : S1x4096.BroadcastsInDim S32768x4096 (![0, 1] : Fin 2 → Fin S32768x4096.rank)
  transposes_S4096x32_S32x4096_1_0 : S4096x32.Transposes [1, 0] S32x4096
  bcast_S_S32768x4096 : S_.BroadcastsInDim S32768x4096 (![] : Fin 0 → Fin S32768x4096.rank)
  dot_S32768x32_S32x4096_S32768x4096_1_0_0_1_n_n_wf : DotDims.WF S32768x32 S32x4096 S32768x4096 [1] [0] [0] [1] [] []
  dot_S32768x4096_S4096x1_S32768x1_1_0_0_1_n_n_wf : DotDims.WF S32768x4096 S4096x1 S32768x1 [1] [0] [0] [1] [] []

variable [Facts₀]

def dot_S32768x32_S32x4096_S32768x4096_1_0_0_1_n_n : DotDims S32768x32 S32x4096 S32768x4096 where
  lhsContracting := [1]
  rhsContracting := [0]
  lhsNonContracting := [0]
  rhsNonContracting := [1]
  lhsBatch := []
  rhsBatch := []
  wf := dot_S32768x32_S32x4096_S32768x4096_1_0_0_1_n_n_wf
def dot_S32768x4096_S4096x1_S32768x1_1_0_0_1_n_n : DotDims S32768x4096 S4096x1 S32768x1 where
  lhsContracting := [1]
  rhsContracting := [0]
  lhsNonContracting := [0]
  rhsNonContracting := [1]
  lhsBatch := []
  rhsBatch := []
  wf := dot_S32768x4096_S4096x1_S32768x1_1_0_0_1_n_n_wf

class Facts : Prop extends Facts₀ where

variable [Facts]
-- ==== Proof.Rbf.lean ====
/-
  The Gaussian-kernel prediction both programs compute, as one function of the scaled points, the scaled centres
  and the coefficients, over the extended reals.  For a point u and a centre v in 32 features the weight is
  exp(-½ · (‖u‖² + ‖v‖² − 2 · u·v)), with ‖·‖² and u·v the plain sums over the features; the prediction at a point
  is the sum over the 4096 centres of the weight times the centre's coefficient.  The two float constants -½ and 2
  are kept as the words the programs print; only their being the same word on both sides is ever used.
-/
import Idealize.ShloMosaic.PureOps.Ideal
import Idealize.ShloMosaic.Lib.ValueIdx

noncomputable section

namespace Cert.Rbf

open Idealize.ShloMosaic Idealize.ShloMosaic.ValueIdx

/-- Row r of an [n, 32] array, as a function of the feature. -/
def row {n : ℕ} (x : (⟨2, ![n, 32]⟩ : Shape).Idx → EReal) (r : Fin n) : Fin 32 → EReal := fun d => x (ix2 r d)

/-- ‖u‖²: the sum of the squares of the features. -/
def sqnorm (u : Fin 32 → EReal) : EReal := ∑ d : Fin 32, u d * u d

/-- u·v: the sum of the products of the features. -/
def inner (u v : Fin 32 → EReal) : EReal := ∑ d : Fin 32, u d * v d

/-- exp(-½ · ((‖u‖² + ‖v‖²) − 2 · u·v)), in the order the programs add and subtract. -/
def gauss (u v : Fin 32 → EReal) : EReal :=
  Ideal.exp (Ideal.ofBits .f32 0xBF000000#32 * ((sqnorm u + sqnorm v) - Ideal.ofBits .f32 0x40000000#32 * inner u v))

/-- The prediction at one point u: the sum over the centres k of the weight of (u, centre k) times coefficient k. -/
def predictRow (u : Fin 32 → EReal) (y : (⟨2, ![4096, 32]⟩ : Shape).Idx → EReal)
    (a : (⟨2, ![4096, 1]⟩ : Shape).Idx → EReal) : EReal :=
  ∑ k : Fin 4096, gauss u (row y k) * a (ix2 k (0 : Fin 1))

/-- The whole result: entry (r, ·) is the prediction at point r. -/
def predict (x : (⟨2, ![32768, 32]⟩ : Shape).Idx → EReal) (y : (⟨2, ![4096, 32]⟩ : Shape).Idx → EReal)
    (a : (⟨2, ![4096, 1]⟩ : Shape).Idx → EReal) : (⟨2, ![32768, 1]⟩ : Shape).Idx → EReal :=
  fun i => predictRow (row x (i 0)) y a

end Cert.Rbf

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«151520_j14731737825437_1_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.KernelRow.lean ====
/-
  What the kernel body stores, read at an entry.  The body holds a block of 512 scaled points x (a [512, 32]
  matrix), all 4096 scaled centres y and the coefficients a, and stores a [512, 1] column.  Entry (p, ·) of that
  column is a sum over the 4096 columns of row p of the matrix  exp(-½ · ((‖x_p‖² + ‖y_k‖²) − 2 · x_p·y_k)) · a_k :
  ‖x_p‖² is a keepdims row sum broadcast along the row, ‖y_k‖² a keepdims row sum of the centres transposed to a
  [1, 4096] row and broadcast down the columns, x_p·y_k the matrix product (into the zero matrix) of the block with the
  transposed centres, whose narrowing to a shorter float format changes nothing over the extended reals, and a_k the
  transposed coefficient column broadcast down the columns.  So the entry is the prediction at point p of the block.
-/
import proofs.«151520_j14731737825437_1_alg».proof.Proof.Gen.KernelIdeal.Skeleton
import proofs.«151520_j14731737825437_1_alg».proof.Proof.Rbf
import proofs.«151520_j14731737825437_1_alg».proof.Proof.LibRowSum
import proofs.«151520_j14731737825437_1_alg».proof.Proof.LibVecIx2
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx

/-- The row operand of the body's matrix product at output (i₀, i₁) and contraction index q is at (i₀, q). -/
theorem lhs_0 (i : S512x4096.Idx) (q : dot_S512x32_S32x4096_S512x4096_1_0_0_1_n_n.contr.Idx) :
    (dot_S512x32_S32x4096_S512x4096_1_0_0_1_n_n.lhsIdx i q 0).val = (i 0).val := by
  unfold DotDims.lhsIdx
  rw [dif_neg (show ¬(0 : Fin S512x32.rank) ∈ dot_S512x32_S32x4096_S512x4096_1_0_0_1_n_n.lhsBatch by decide),
    dif_pos (show (0 : Fin S512x32.rank) ∈ dot_S512x32_S32x4096_S512x4096_1_0_0_1_n_n.lhsNonContracting by decide)]
  rfl

/-- The column operand at output (i₀, i₁) and contraction index q is at (q, i₁). -/
theorem rhs_1 (i : S512x4096.Idx) (q : dot_S512x32_S32x4096_S512x4096_1_0_0_1_n_n.contr.Idx) :
    (dot_S512x32_S32x4096_S512x4096_1_0_0_1_n_n.rhsIdx i q 1).val = (i 1).val := by
  unfold DotDims.rhsIdx
  rw [dif_neg (show ¬(1 : Fin S32x4096.rank) ∈ dot_S512x32_S32x4096_S512x4096_1_0_0_1_n_n.rhsBatch by decide),
    dif_pos (show (1 : Fin S32x4096.rank) ∈ dot_S512x32_S32x4096_S512x4096_1_0_0_1_n_n.rhsNonContracting by decide)]
  rfl

/-- The body's matrix product into the zero matrix, at (p, k): the sum over the 32 features of the products. -/
theorem dot_apply {φ₁ φ₂ : FTy} (lhs : FVec Ideal S512x32 φ₁) (rhs : FVec Ideal S32x4096 φ₂) (p : Fin 512) (k : Fin 4096) :
    matmul dot_S512x32_S32x4096_S512x4096_1_0_0_1_n_n none lhs rhs (constant S512x4096 .f32 0x00000000#32) (ix2 p k)
      = ∑ d : Fin 32, lhs (ix2 p d) * rhs (ix2 d k) := by
  refine (Ideal.matmul_constant_zero_apply dot_S512x32_S32x4096_S512x4096_1_0_0_1_n_n none lhs rhs (ix2 p k)).trans ?_
  rw [← Equiv.sum_comp (contrEquiv1 dot_S512x32_S32x4096_S512x4096_1_0_0_1_n_n 32 rfl rfl).symm]
  refine Finset.sum_congr rfl fun d _ => ?_
  have hk := contrEquiv1_symm_val dot_S512x32_S32x4096_S512x4096_1_0_0_1_n_n 32 rfl rfl d
  have el : dot_S512x32_S32x4096_S512x4096_1_0_0_1_n_n.lhsIdx (ix2 p k) ((contrEquiv1 dot_S512x32_S32x4096_S512x4096_1_0_0_1_n_n 32 rfl rfl).symm d) = ix2 p d :=
    funext fun a => Fin.ext (by
      match a with
      | ⟨0, _⟩ => exact lhs_0 _ _
      | ⟨1, _⟩ => exact (dot_S512x32_S32x4096_S512x4096_1_0_0_1_n_n.lhsIdx_val_of_single rfl _ _).trans hk)
  have er : dot_S512x32_S32x4096_S512x4096_1_0_0_1_n_n.rhsIdx (ix2 p k) ((contrEquiv1 dot_S512x32_S32x4096_S512x4096_1_0_0_1_n_n 32 rfl rfl).symm d) = ix2 d k :=
    funext fun a => Fin.ext (by
      match a with
      | ⟨0, _⟩ => exact (dot_S512x32_S32x4096_S512x4096_1_0_0_1_n_n.rhsIdx_val_of_single rfl _ _).trans hk
      | ⟨1, _⟩ => exact rhs_1 _ _)
  rw [el, er]

/-- ‖x_p‖², kept as a column and broadcast along row p. -/
theorem sq_points (v : FVec Ideal S512x32 .f32) (p : Fin 512) (k : Fin 4096) :
    broadcastTo S512x4096 (shapeCast S512x1 (multiReduction .add [1] S512 (mulf v v) 0x00000000#32 reduces_S512x32_S512 (.inl rfl) rfl)
      shapeCasts_S512_S512x1) broadcasts_S512x1_S512x4096 (ix2 p k) = Rbf.sqnorm (Rbf.row v p) := by
  refine (Cert.Lib.VecIx2.bcast_col _ _ p k).trans ?_
  refine (Cert.Lib.RowSum.rowsum_column _ _ _ _ _ p 0).trans ?_
  rfl

/-- ‖y_k‖², kept as a column, transposed to a row and broadcast down column k. -/
theorem sq_centres (w : FVec Ideal S4096x32 .f32) (p : Fin 512) (k : Fin 4096) :
    broadcastTo S512x4096 (transpose S1x4096 [1, 0] (shapeCast S4096x1 (multiReduction .add [1] S4096 (mulf w w) 0x00000000#32
      reduces_S4096x32_S4096 (.inl rfl) rfl) shapeCasts_S4096_S4096x1) transposes_S4096x1_p1_0_S1x4096) broadcasts_S1x4096_S512x4096 (ix2 p k)
      = Rbf.sqnorm (Rbf.row w k) := by
  refine (broadcastTo_1b_ab_apply _ _ p k).trans ?_
  refine (transpose_ix2_apply _ _ (0 : Fin 1) k).trans ?_
  refine (Cert.Lib.RowSum.rowsum_column _ _ _ _ _ k 0).trans ?_
  rfl

/-- x_p·y_k: the product of the block with the transposed centres, both narrowed, at (p, k). -/
theorem cross (v : FVec Ideal S512x32 .f32) (w : FVec Ideal S4096x32 .f32) (p : Fin 512) (k : Fin 4096) :
    matmul dot_S512x32_S32x4096_S512x4096_1_0_0_1_n_n none (truncf .bf16 v bitsLt_bf16_f32)
      (transpose S32x4096 [1, 0] (truncf .bf16 w bitsLt_bf16_f32) transposes_S4096x32_p1_0_S32x4096)
      (constant S512x4096 .f32 0x00000000#32) (ix2 p k) = Rbf.inner (Rbf.row v p) (Rbf.row w k) := by
  refine (dot_apply _ _ p k).trans ?_
  unfold Rbf.inner Rbf.row
  refine Finset.sum_congr rfl fun d _ => ?_
  rw [transpose_ix2_apply]
  rfl

/-- a_k: the coefficient column transposed to a row and broadcast down column k. -/
theorem coeff (a : FVec Ideal S4096x1 .f32) (p : Fin 512) (k : Fin 4096) :
    broadcastTo S512x4096 (transpose S1x4096 [1, 0] a transposes_S4096x1_p1_0_S1x4096) broadcasts_S1x4096_S512x4096 (ix2 p k)
      = a (ix2 k (0 : Fin 1)) := by
  refine (broadcastTo_1b_ab_apply _ _ p k).trans ?_
  exact transpose_ix2_apply _ _ (0 : Fin 1) k

/-- THE STORED COLUMN at (p, ·) is the prediction at point p of the block. -/
theorem pay_apply (x0 : Vec Ideal S512x32 .f32) (x1 : Vec Ideal S4096x32 .f32) (x2 : Vec Ideal S4096x1 .f32)
    (p : Fin 512) (u : Fin 1) :
    k0_pay1 (F := Ideal) x0 x1 x2 (ix2 p u) = Rbf.predictRow (Rbf.row x0 p) x1 x2 := by
  unfold k0_pay1
  refine (Cert.Lib.RowSum.rowsum_column _ _ _ _ _ p u).trans ?_
  unfold Rbf.predictRow
  refine Finset.sum_congr rfl fun k _ => ?_
  rw [shapeCast_self, shapeCast_self]
  refine (mulf_apply _ _ _).trans ?_
  rw [coeff]
  refine congrArg (· * _) ?_
  show Ideal.exp (Ideal.ofBits .f32 0xBF000000#32 * ((_ + _) - Ideal.ofBits .f32 0x40000000#32 * _)) = _
  rw [sq_points, sq_centres, cross]
  rfl

end Cert.KernelIdeal.Row

end
-- ==== Proof.KernelArray.lean ====
/-
  From the blocks to the whole result.  The grid has 64 points; point t stages rows 512·t … 512·t + 511 of the scaled
  points, the whole of the scaled centres and of the coefficients, and writes back rows 512·t … 512·t + 511 of the
  [32768, 1] result.  Entry p of what point t writes back is the prediction at row 512·t + p (the stored column read
  at an entry), that is, block t of ONE whole-array function: the prediction of the arrays the region finds.  Every
  row r lies in the block of point r / 512, so after the run the result array is that function.
-/
import proofs.«151520_j14731737825437_1_alg».proof.Proof.Gen.KernelIdeal.Value
import proofs.«151520_j14731737825437_1_alg».proof.Proof.KernelRow
import Idealize.ShloMosaic.Lib.Pipeline.Value

set_option maxRecDepth 16384

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point t: the points' and the result's blocks move with t along the rows, the centres' and
    the coefficients' block is always the first (decided over the 64 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a stored column against the whole-array prediction: if the block's row (j 0) is row r of the points
    X, the staged centres and coefficients are the whole arrays, and the entry sits on row r of the result, then the
    stored entry is the prediction there. -/
theorem entry_eq (X : S32768x32.Idx → EReal) (Y : S4096x32.Idx → EReal) (A : S4096x1.Idx → EReal)
    (x0 : Vec Ideal S512x32 .f32) (x1 : Vec Ideal S4096x32 .f32) (x2 : Vec Ideal S4096x1 .f32)
    (j : S512x1.Idx) (i : S32768x1.Idx) (r : Fin 32768) (hr : (i 0).val = r.val)
    (h0 : ∀ d : Fin 32, x0 (ix2 (j 0) d) = X (ix2 r d)) (h1 : x1 = Y) (h2 : x2 = A) :
    k0_pay1 (F := Ideal) x0 x1 x2 j = Rbf.predict X Y A i := by
  subst h1 h2
  have hi : i 0 = r := Fin.ext hr
  obtain ⟨p, u, rfl⟩ : ∃ (p : Fin 512) (u : Fin 1), j = ix2 p u := ⟨j 0, j 1, eq_ix2 j⟩
  refine (Row.pay_apply x0 x1 x2 p u).trans ?_
  unfold Rbf.predict
  rw [hi]
  refine congrArg (fun v => Rbf.predictRow v x1 x2) (funext fun d => ?_)
  exact h0 d

/-- WHAT POINT t WRITES BACK is block t of the prediction of the arrays as the region finds them. -/
theorem flushed_eq (c : Dev nD) (t : Fin cfg0.N) :
    (dats m 0 c).flushed 3 t
      = ((cfg0.win 3).blk t).view.read (Elt Ideal) (Rbf.predict (V m c main_v2) (V m c main_v4) (V m c main_arg2)) := by
  rw [Value.flushed3]
  unfold out0_3
  rw [View.canon_unit_zero zero_offsets]
  simp only [View.ld_unit_zero (S := S512x32) zero_offsets, View.ld_unit_zero (S := S4096x32) zero_offsets,
    View.ld_unit_zero (S := S4096x1) zero_offsets]
  obtain ⟨e0, e1, e2, e3, e4, e5, e6, e7⟩ := idx_facts t
  have hN : cfg0.N = 64 := N_0
  funext j
  have hj0 : (j 0).val < 512 := (j 0).isLt
  have ht : t.val < 64 := hN ▸ t.isLt
  show k0_pay1 (F := Ideal) (iblk m c 0 t) (iblk m c 1 t) (iblk m c 2 t) j
    = Rbf.predict (V m c main_v2) (V m c main_v4) (V m c main_arg2) (((cfg0.win 3).blk t).view.emb j)
  refine entry_eq (V m c main_v2) (V m c main_v4) (V m c main_arg2) _ _ _ j _ ⟨t.val * 512 + (j 0).val, by omega⟩ ?_ ?_ ?_ ?_
  · show win0_3.index t (0 : Fin 2) * 512 + 1 * (j 0).val = t.val * 512 + (j 0).val
    rw [e6]; omega
  · intro d
    unfold iblk
    rw [View.read_apply]
    show V m c main_v2 _ = V m c main_v2 _
    refine congrArg (V m c main_v2) (funext fun a => Fin.ext ?_)
    match a with
    | ⟨0, _⟩ => show win0_0.index t (0 : Fin 2) * 512 + 1 * (j 0).val = t.val * 512 + (j 0).val; rw [e0]; omega
    | ⟨1, _⟩ => show win0_0.index t (1 : Fin 2) * 32 + 1 * d.val = d.val; rw [e1]; omega
  · funext y
    unfold iblk
    rw [View.read_apply]
    show V m c main_v4 _ = V m c main_v4 _
    refine congrArg (V m c main_v4) (funext fun a => Fin.ext ?_)
    match a with
    | ⟨0, _⟩ => show win0_1.index t (0 : Fin 2) * 4096 + 1 * (y 0).val = (y 0).val; rw [e2]; omega
    | ⟨1, _⟩ => show win0_1.index t (1 : Fin 2) * 32 + 1 * (y 1).val = (y 1).val; rw [e3]; omega
  · funext y
    unfold iblk
    rw [View.read_apply]
    show V m c main_arg2 _ = V m c main_arg2 _
    refine congrArg (V m c main_arg2) (funext fun a => Fin.ext ?_)
    match a with
    | ⟨0, _⟩ => show win0_2.index t (0 : Fin 2) * 4096 + 1 * (y 0).val = (y 0).val; rw [e4]; omega
    | ⟨1, _⟩ => show win0_2.index t (1 : Fin 2) * 1 + 1 * (y 1).val = (y 1).val; rw [e5]; omega

/-- An index of the result is in point t's block iff each coordinate is in the block's range on its axis. -/
theorem mem_blk (t : Fin cfg0.N) (i : S32768x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v5).slice (win0_3.rect t)).set ↔ _
  rw [View.set_slice_whole, Rect.mem_set_unit]
  exact Iff.rfl

/-- Every entry of the result is in the block of the point that holds its row: row r is in block r / 512. -/
theorem cover (i : S32768x1.Idx) :
    ∃ t : Fin cfg0.N, (cfg0.win 3).flush t = true ∧ i ∈ ((cfg0.win 3).blk t).view.set := by
  have hi0 : (i 0).val < 32768 := (i 0).isLt
  have hi1 : (i 1).val < 1 := (i 1).isLt
  have hN : cfg0.N = 64 := N_0
  have hlt : (i 0).val / 512 < cfg0.N := by rw [hN]; omega
  refine ⟨⟨(i 0).val / 512, hlt⟩, flush0_3 _, ?_⟩
  rw [mem_blk]
  obtain ⟨-, -, -, -, -, -, e6, e7⟩ := idx_facts ⟨(i 0).val / 512, hlt⟩
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e6]
    show (i 0).val / 512 * 512 ≤ (i 0).val ∧ (i 0).val < (i 0).val / 512 * 512 + 512
    omega
  | ⟨1, _⟩ =>
    show win0_3.index ⟨(i 0).val / 512, hlt⟩ (1 : Fin 2) * 1 ≤ (i 1).val
      ∧ (i 1).val < win0_3.index ⟨(i 0).val / 512, hlt⟩ (1 : Fin 2) * 1 + 1
    rw [e7]
    omega

/-- THE RESULT ARRAY after the run: the prediction of the arrays as the region finds them. -/
theorem final (c : Dev nD) :
    (dats m 0 c).arrAt 3 cfg0.N = Rbf.predict (V m c main_v2) (V m c main_v4) (V m c main_arg2) :=
  (dats m 0 c).arrAt_eq_of_cover 3 _ (fun t _ => flushed_eq m c t) cover

end Cert.KernelIdeal.Whole

end
-- ==== Proof.Bridge.lean ====
/-
  The kernel's run, read whole.  Before the region the program divides the points and the centres by the one scale
  entry, exactly as the reference does, so the arrays the region finds are the reference's scaled points and scaled
  centres, and the coefficient array is as launched.  With the result array after the run being the prediction of the
  arrays the region finds, the kernel's result is the prediction of the scaled points, the scaled centres and the
  coefficients — the same function of the arguments as the reference's result.
-/
import proofs.«151520_j14731737825437_1_alg».proof.Proof.Gen.KernelIdeal.Value
import proofs.«151520_j14731737825437_1_alg».proof.Proof.Gen.ReferenceIdeal.Read
import proofs.«151520_j14731737825437_1_alg».proof.Proof.KernelArray
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The region finds the points divided by the scale: the reference's scaled points of the launch contents. -/
theorem V_points (c : Dev nD) :
    (V m c main_v2 : S32768x32.Idx → EReal)
      = Cert.ReferenceIdeal.Read.val_main_v2 (F := Ideal) (m ((c : Thread nD τ).loc main_arg0)) (m ((c : Thread nD τ).loc main_arg3)) := by
  dsimp only [Gen.V, Gen.hostOps0]
  after_results
  rfl

/-- The region finds the centres divided by the scale: the reference's scaled centres of the launch contents. -/
theorem V_centres (c : Dev nD) :
    (V m c main_v4 : S4096x32.Idx → EReal)
      = Cert.ReferenceIdeal.Read.val_main_v4 (F := Ideal) (m ((c : Thread nD τ).loc main_arg1)) (m ((c : Thread nD τ).loc main_arg3)) := by
  dsimp only [Gen.V, Gen.hostOps0]
  after_results
  rfl

/-- The prediction of the launch contents: the scaled points and centres (each argument divided by the scale entry)
    and the coefficients. -/
abbrev result (c : Dev nD) : S32768x1.Idx → EReal :=
  Rbf.predict
    (Cert.ReferenceIdeal.Read.val_main_v2 (F := Ideal) (m ((c : Thread nD τ).loc main_arg0)) (m ((c : Thread nD τ).loc main_arg3)))
    (Cert.ReferenceIdeal.Read.val_main_v4 (F := Ideal) (m ((c : Thread nD τ).loc main_arg1)) (m ((c : Thread nD τ).loc main_arg3)))
    (m ((c : Thread nD τ).loc main_arg2))

/-- The result array after the run is the prediction of the launch contents. -/
theorem final_args (c : Dev nD) : (dats m 0 c).arrAt 3 cfg0.N = result m c := by
  rw [final, V_points, V_centres, V_main_arg2]

/-- THE RUN: every weakly fair execution terminates with the result array at the prediction of the launch contents and
    the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_args m c), (h c).2⟩)
    (Cert.KernelIdeal.Value.run_blocks m ρ)

end Cert.KernelIdeal.Whole

end
-- ==== Proof.RefIsRbf.lean ====
/-
  The reference computes the Gaussian-kernel prediction.  Its last stage, a matrix product of the [32768, 4096]
  array of weights with the [4096, 1] column of coefficients, is at (r, ·) the sum over the centres k of the weight at
  (r, k) times coefficient k; the weight at (r, k) is exp(-½ · ((‖x_r‖² + ‖y_k‖²) − 2 · x_r·y_k)) of the scaled
  point r and the scaled centre k: the two squared norms are host sums from the zero word (which adds nothing), kept
  as a column and as a transposed row and broadcast over the matrix, and x_r·y_k is the product with the transposed
  centres at (r, k).
-/
import proofs.«151520_j14731737825437_1_alg».proof.Proof.Gen.ReferenceIdeal.Read
import proofs.«151520_j14731737825437_1_alg».proof.Proof.Rbf

noncomputable section

namespace Cert.ReferenceIdeal.RefValue

open Cert.ReferenceIdeal Cert.ReferenceIdeal.Gen Cert.ReferenceIdeal.Read Idealize.ShloMosaic Idealize.ShloMosaic.ValueIdx

variable (x0 : (⟨S32768x32, .f32⟩ : BufTy).Contents (Elt Ideal)) (x1 : (⟨S4096x32, .f32⟩ : BufTy).Contents (Elt Ideal))
  (x2 : (⟨S4096x1, .f32⟩ : BufTy).Contents (Elt Ideal)) (x3 : (⟨S1, .f32⟩ : BufTy).Contents (Elt Ideal))

/-- The broadcast column of the points' squared norms, at (r, k): ‖x_r‖². -/
theorem sq_points (i : S32768x4096.Idx) :
    val_main_v12 (F := Ideal) x0 x3 i = Rbf.sqnorm (Rbf.row (val_main_v2 (F := Ideal) x0 x3) (i 0)) := by
  rw [val_main_v12_apply, val_main_v7_apply, val_main_v6_apply]
  show Ideal.ofBits .f32 0x00000000#32 + _ = _
  rw [Ideal.ofBits_zero_f32, zero_add]
  unfold Rbf.sqnorm Rbf.row
  refine Finset.sum_congr rfl fun d _ => ?_
  rw [val_main_v5_apply]
  have e : idx_main_v6 (idx_main_v7 (idx_main_v12 i)) d = ix2 (i 0) d :=
    funext fun a => Fin.ext (by match a with | ⟨0, _⟩ => rfl | ⟨1, _⟩ => rfl)
  rw [e]
  rfl

/-- The broadcast transposed row of the centres' squared norms, at (r, k): ‖y_k‖². -/
theorem sq_centres (i : S32768x4096.Idx) :
    val_main_v13 (F := Ideal) x1 x3 i = Rbf.sqnorm (Rbf.row (val_main_v4 (F := Ideal) x1 x3) (i 1)) := by
  rw [val_main_v13_apply, val_main_v11_apply, val_main_v10_apply, val_main_v9_apply]
  show Ideal.ofBits .f32 0x00000000#32 + _ = _
  rw [Ideal.ofBits_zero_f32, zero_add]
  unfold Rbf.sqnorm Rbf.row
  refine Finset.sum_congr rfl fun d _ => ?_
  rw [val_main_v8_apply]
  have e : idx_main_v9 (idx_main_v10 (idx_main_v11 (idx_main_v13 i))) d = ix2 (i 1) d :=
    funext fun a => Fin.ext (by match a with | ⟨0, _⟩ => rfl | ⟨1, _⟩ => rfl)
  rw [e]
  rfl

/-- The product of the points with the transposed centres, at (r, k): x_r·y_k. -/
theorem cross (i : S32768x4096.Idx) :
    val_main_v16 (F := Ideal) x0 x1 x3 i
      = Rbf.inner (Rbf.row (val_main_v2 (F := Ideal) x0 x3) (i 0)) (Rbf.row (val_main_v4 (F := Ideal) x1 x3) (i 1)) := by
  rw [val_main_v16_apply]
  unfold Rbf.inner Rbf.row
  refine Finset.sum_congr rfl fun d _ => ?_
  rw [val_main_v15_apply]
  have el : lidx_main_v16 i d = ix2 (i 0) d :=
    funext fun a => Fin.ext (by match a with | ⟨0, _⟩ => rfl | ⟨1, _⟩ => rfl)
  have er : idx_main_v15 (ridx_main_v16 i d) = ix2 (i 1) d :=
    funext fun a => Fin.ext (by match a with | ⟨0, _⟩ => rfl | ⟨1, _⟩ => rfl)
  rw [el, er]
  rfl

/-- The matrix of weights, at (r, k): the Gaussian weight of point r and centre k. -/
theorem weight (i : S32768x4096.Idx) :
    val_main_v22 (F := Ideal) x0 x1 x3 i
      = Rbf.gauss (Rbf.row (val_main_v2 (F := Ideal) x0 x3) (i 0)) (Rbf.row (val_main_v4 (F := Ideal) x1 x3) (i 1)) := by
  rw [val_main_v22_apply, val_main_v21_apply, val_main_v20_apply, val_main_cst_2_apply, val_main_v19_apply,
    val_main_v14_apply, val_main_v18_apply, val_main_v17_apply, val_main_cst_1_apply, sq_points, sq_centres, cross]
  rfl

/-- The reference's result is the prediction of the scaled points, the scaled centres and the coefficients. -/
theorem result_eq :
    val_main_v23 (F := Ideal) x0 x1 x2 x3
      = Rbf.predict (val_main_v2 (F := Ideal) x0 x3) (val_main_v4 (F := Ideal) x1 x3) x2 := by
  funext i
  rw [val_main_v23_apply]
  unfold Rbf.predict Rbf.predictRow
  refine Finset.sum_congr rfl fun k _ => ?_
  rw [weight]
  have er : ridx_main_v23 i k = ix2 k (0 : Fin 1) :=
    funext fun a => Fin.ext (by
      match a with
      | ⟨0, _⟩ => rfl
      | ⟨1, _⟩ => have h1 : (i 1).val < 1 := (i 1).isLt; show (i 1).val = 0; omega)
  rw [er]
  rfl

end Cert.ReferenceIdeal.RefValue

end
-- ==== Proof.lean ====
/-
  The proof of `Cert.Claim` for a Gaussian-kernel predictor: for 32768 points x and 4096 centres y in 32 features,
  both divided by one scale entry, and coefficients a, the result at point r is
      Σ_k exp(-½ · ((‖x_r‖² + ‖y_k‖²) − 2 · x_r·y_k)) · a_k .
  The kernel computes it 512 points at a time: squared norms as keepdims row sums, x_r·y_k as one matrix product of the
  block with the transposed centres (narrowed to a shorter float format, which over the extended reals changes
  nothing), the weights multiplied by the coefficient row and summed along each row.  The reference computes the same
  weights for all points at once and multiplies the weight matrix with the coefficient column.  Over the extended reals
  both are the same sums of the same terms, index by index (Proof/Rbf.lean states the function; Proof/KernelRow.lean,
  Proof/KernelArray.lean and Proof/Bridge.lean read it off the kernel, Proof/RefIsRbf.lean off the reference): no
  law beyond reading each operation at an index is needed, so the finiteness of the inputs is never used.
  The three frames are the generated ones (the reference's is its generated run with the result dropped); the
  idealization rewrote no operation, so `preserves` is trivial.
-/
import proofs.«151520_j14731737825437_1_alg».proof.Defs
import proofs.«151520_j14731737825437_1_alg».proof.Proof.Gen.Kernel
import proofs.«151520_j14731737825437_1_alg».proof.Proof.Gen.Kernel.Skeleton
import proofs.«151520_j14731737825437_1_alg».proof.Proof.Gen.Kernel.Launch
import proofs.«151520_j14731737825437_1_alg».proof.Proof.Gen.Kernel.Points
import proofs.«151520_j14731737825437_1_alg».proof.Proof.Gen.Kernel.Frame
import proofs.«151520_j14731737825437_1_alg».proof.Proof.Gen.KernelIdeal
import proofs.«151520_j14731737825437_1_alg».proof.Proof.Gen.KernelIdeal.Skeleton
import proofs.«151520_j14731737825437_1_alg».proof.Proof.Gen.KernelIdeal.Launch
import proofs.«151520_j14731737825437_1_alg».proof.Proof.Gen.KernelIdeal.Points
import proofs.«151520_j14731737825437_1_alg».proof.Proof.Gen.KernelIdeal.Frame
import proofs.«151520_j14731737825437_1_alg».proof.Proof.Gen.ReferenceIdeal
import proofs.«151520_j14731737825437_1_alg».proof.Proof.Gen.Pre_finite_inputs
import proofs.«151520_j14731737825437_1_alg».proof.Proof.Gen.KernelIdeal.Value
import proofs.«151520_j14731737825437_1_alg».proof.Proof.Gen.ReferenceIdeal.Run
import proofs.«151520_j14731737825437_1_alg».proof.Proof.Gen.ReferenceIdeal.Read
import proofs.«151520_j14731737825437_1_alg».proof.Proof.Bridge
import proofs.«151520_j14731737825437_1_alg».proof.Proof.RefIsRbf
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the prediction of the launch contents: the kernel's by the run read whole, the
    reference's because its composed term is that function; the two launch memories agree on the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
